-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S1000000x128 .f32) (main_arg1 : IVec S1000000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S10000x128 : Shape := ⟨2, ![10000, 128]⟩
abbrev S_ : Shape := ⟨0, ![]⟩
abbrev S100000x128 : Shape := ⟨2, ![100000, 128]⟩
abbrev S1000000x1 : Shape := ⟨2, ![1000000, 1]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 20
  | .vmem => 16
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x128, .f32⟩
  | .hbm, ⟨11, _⟩ => ⟨S1x128, .f32⟩
  | .hbm, ⟨12, _⟩ => ⟨S1000000x128, .f32⟩
  | .hbm, ⟨13, _⟩ => ⟨S_, .f32⟩
  | .hbm, ⟨14, _⟩ => ⟨S100000x128, .f32⟩
  | .hbm, ⟨15, _⟩ => ⟨S1000000x1, .i32⟩
  | .hbm, ⟨16, _⟩ => ⟨S100000x128, .f32⟩
  | .hbm, ⟨17, _⟩ => ⟨S1x128, .f32⟩
  | .hbm, ⟨18, _⟩ => ⟨S1x1, .f32⟩
  | .hbm, ⟨19, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  shapeCasts_S1_S1x1 : S1.ShapeCasts S1x1
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x128_S128x128_S10000x128_1_0_0_1_n_n_wf : DotDims.WF S10000x128 S128x128 S10000x128 [1] [0] [0] [1] [] []
  scatter_S100000x128_S1000000x1_S1000000x128_1_0_0_1_wf : ScatterDims.WF S100000x128 S1000000x1 S1000000x128 [1] [0] [0] 1
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S1000000x128.size a
  hwx0_5 : ∀ i : grid0.Coords, EltTy.bits .f32 = 32 ∨ (Rect.block (s := S1000000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x1.size a ≤ S100000x1.size a
  hwx1_5 : ∀ i : grid1.Coords, EltTy.bits .f32 = 32 ∨ (Rect.block (s := S100000x1) S10000x1.size (cc1_transform_5 i) (hinb1_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S10000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S100000x128 : Shape := ⟨2, ![100000, 128]⟩
abbrev S1000000x1 : Shape := ⟨2, ![1000000, 1]⟩
abbrev S100000x1 : Shape := ⟨2, ![100000, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1000000x128, .f32⟩
  | .hbm, ⟨11, _⟩ => ⟨S1x128, .f32⟩
  | .hbm, ⟨12, _⟩ => ⟨S1000000x128, .f32⟩
  | .hbm, ⟨13, _⟩ => ⟨S1000000x128, .f32⟩
  | .hbm, ⟨14, _⟩ => ⟨S1000000x128, .f32⟩
  | .hbm, ⟨15, _⟩ => ⟨S1000000x128, .f32⟩
  | .hbm, ⟨16, _⟩ => ⟨S_, .f32⟩
  | .hbm, ⟨17, _⟩ => ⟨S1000000x128, .f32⟩
  | .hbm, ⟨18, _⟩ => ⟨S1000000x128, .f32⟩
  | .hbm, ⟨19, _⟩ => ⟨S_, .f32⟩
  | .hbm, ⟨20, _⟩ => ⟨S1000000x128, .f32⟩
  | .hbm, ⟨21, _⟩ => ⟨S1000000x128, .f32⟩
  | .hbm, ⟨22, _⟩ => ⟨S1000000x128, .f32⟩
  | .hbm, ⟨23, _⟩ => ⟨S1000000x128, .f32⟩
  | .hbm, ⟨24, _⟩ => ⟨S1x128, .f32⟩
  | .hbm, ⟨25, _⟩ => ⟨S1000000x128, .f32⟩
  | .hbm, ⟨26, _⟩ => ⟨S1000000x128, .f32⟩
  | .hbm, ⟨27, _⟩ => ⟨S_, .f32⟩
  | .hbm, ⟨28, _⟩ => ⟨S100000x128, .f32⟩
  | .hbm, ⟨29, _⟩ => ⟨S1000000x1, .i32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  bcast_S1000000_S1000000x1_0 : S1000000.BroadcastsInDim S1000000x1 (![0] : Fin 1 → Fin S1000000x1.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S1000000x128_S128x128_S1000000x128_1_0_0_1_n_n_wf : DotDims.WF S1000000x128 S128x128 S1000000x128 [1] [0] [0] [1] [] []
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RunValue.lean ====
/-
  THE RUN OF THE WHOLE PROGRAM WITH ITS RESULT NAMED.

  @main is four segments: the host operations before the first kernel region, the first region (the per-atom
  network), the host operations between the regions (the segment sum), and the second region (the per-graph head).
  The buffer contents at each segment boundary are a fold from the launch memory (`W0` … `W4`); every weakly fair
  execution terminates, faults nowhere, and ends with every unscoped buffer at the last boundary's contents `W4`.
  Read at the result buffer that is the program's result; read at an argument buffer it is the argument as launched.
-/
import proofs.«157744_j50964081935487_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«157744_j50964081935487_1_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.AtomValue.lean ====
/-
  REGION 0, the per-atom network: what its output array holds after the region, as one function of the arrays the
  region finds.

  The grid has 100 points.  Point t reads rows 10000·t … 10000·t + 9999 of the feature array (window 0), the whole of
  both weight matrices and of both [1, 128] bias rows (windows 1–4, the same block at every point), and writes rows
  10000·t … 10000·t + 9999 of the output (window 5).  The body computes, for its block x of 10000 rows,
      (act (x · W₁ + b₁)) · W₂ + b₂        with act y = y · σ(y),
  the matrix products on operands rounded to bf16 — the identity over the extended reals.  Entry (p, q) of that block
  depends on row p of x only, so the block is rows 10000·t … of the same expression of the WHOLE feature array; the 100
  blocks tile the output array, which therefore ends holding that expression everywhere.
-/
import proofs.«157744_j50964081935487_1_alg».proof.Proof.Gen.KernelIdeal.Frame
import proofs.«157744_j50964081935487_1_alg».proof.Proof.LibDenseLayer
import Idealize.ShloMosaic.Lib.Pipeline.Value
import Idealize.ShloMosaic.Lib.ValueIdx

set_option maxRecDepth 16384

noncomputable section

namespace Cert.KernelIdeal.AtomValue

open Cert.KernelIdeal Cert.KernelIdeal.Gen Idealize.ShloMosaic Idealize.ShloMosaic.TcCoe Idealize.SL.Sem
open Idealize.ShloMosaic.Pipeline (Dat Cfg Window)
open Idealize.ShloMosaic.ValueIdx DenseLayer

variable (V : (c : Dev nD) → (b : Ref sig .tc) → Buf (Elt Ideal) ((c : Thread nD τ).loc b))

/-- The body's two matrix products are plain: rows × contraction times contraction × columns. -/
theorem plain : PlainDot.IsPlain dot_S10000x128_S128x128_S10000x128_1_0_0_1_n_n := ⟨rfl, rfl, rfl, rfl, rfl, rfl⟩

/-- The value the body stores, as two dense layers with the activation between them, of the five blocks it loads. -/
theorem pay_eq (x0 : Vec Ideal S10000x128 .f32) (x1 : Vec Ideal S128x128 .f32) (x2 : Vec Ideal S1x128 .f32)
    (x3 : Vec Ideal S128x128 .f32) (x4 : Vec Ideal S1x128 .f32) :
    k0_pay1 (F := Ideal) x0 x1 x2 x3 x4
      = mlp x0 x1 (fun q => x2 (ix2 (0 : Fin 1) q)) x3 (fun q => x4 (ix2 (0 : Fin 1) q)) := by
  unfold k0_pay1
  dsimp only
  rw [kernel_dense plain x0 x1 x2, kernel_act, kernel_dense plain _ x3 x4]
  rfl

/-- The per-atom network of whole arrays: features [1000000, 128], two [128, 128] weight matrices, two [1, 128] bias rows. -/
abbrev atomNet (a0 : S1000000x128.Idx → EReal) (w1 : S128x128.Idx → EReal) (b1 : S1x128.Idx → EReal)
    (w2 : S128x128.Idx → EReal) (b2 : S1x128.Idx → EReal) : S1000000x128.Idx → EReal :=
  mlp a0 w1 (fun q => b1 (ix2 (0 : Fin 1) q)) w2 (fun q => b2 (ix2 (0 : Fin 1) q))

theorem hz : (![0, 0] : Fin 2 → Nat) = fun _ => 0 := funext fun a => by fin_cases a <;> rfl

/-- The printed index maps over the grid: the feature window and the output window are at block (t, 0); the weight and
    bias windows stay at block (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 10000·t + p of the array. -/
def row (t : Fin cfg0.N) (p : Fin 10000) : Fin 1000000 :=
  ⟨t.val * 10000 + p.val, by have h : t.val < 100 := lt_of_lt_of_eq t.isLt N_0; have := p.isLt; omega⟩

/-- Where an element of the feature block sits in the feature array. -/
theorem emb_in (t : Fin cfg0.N) (p : Fin 10000) (k : Fin 128) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega

/-- Where an element of the output block sits in the output array. -/
theorem emb_out (t : Fin cfg0.N) (p : Fin 10000) (q : Fin 128) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 10000 + 1 * p.val = t.val * 10000 + p.val; omega
  | ⟨1, _⟩ => show win0_5.index t (1 : Fin 2) * 128 + 1 * q.val = q.val; omega

/-- The feature block at point t, read at (p, k), is the feature array at (10000·t + p, k). -/
theorem feat_blk (c : Dev nD) (t : Fin cfg0.N) (p : Fin 10000) (k : Fin 128) :
    iblk0 V c 0 t (ix2 p k) = V c main_arg0 (ix2 (row t p) k) := by
  show V c main_arg0 (((cfg0.win 0).blk t).view.emb (ix2 p k)) = _
  rw [emb_in]

/-- The first weight block is the whole first weight matrix, at every point. -/
theorem w1_blk (c : Dev nD) (t : Fin cfg0.N) (y : S128x128.Idx) : iblk0 V c 1 t y = V c main_arg2 y := by
  show V c main_arg2 (((cfg0.win 1).blk t).view.emb y) = _
  obtain ⟨-, -, e0, e1, -⟩ := idx_facts t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first bias block is the whole first bias row. -/
theorem b1_blk (c : Dev nD) (t : Fin cfg0.N) (y : S1x128.Idx) : iblk0 V c 2 t y = V c main_v0 y := by
  show V c main_v0 (((cfg0.win 2).blk t).view.emb y) = _
  obtain ⟨-, -, -, -, e0, e1, -⟩ := idx_facts t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight block is the whole second weight matrix. -/
theorem w2_blk (c : Dev nD) (t : Fin cfg0.N) (y : S128x128.Idx) : iblk0 V c 3 t y = V c main_arg4 y := by
  show V c main_arg4 (((cfg0.win 3).blk t).view.emb y) = _
  obtain ⟨-, -, -, -, -, -, e0, e1, -⟩ := idx_facts t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias block is the whole second bias row. -/
theorem b2_blk (c : Dev nD) (t : Fin cfg0.N) (y : S1x128.Idx) : iblk0 V c 4 t y = V c main_v1 y := by
  show V c main_v1 (((cfg0.win 4).blk t).view.emb y) = _
  obtain ⟨-, -, -, -, -, -, -, -, e0, e1, -⟩ := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT POINT t WRITES BACK is block t of the per-atom network of the whole arrays the region finds. -/
theorem flushed_eq (c : Dev nD) (t : Fin cfg0.N) :
    (dat0 V c).flushed 5 t = ((cfg0.win 5).blk t).view.read (Elt Ideal)
      (atomNet (V c main_arg0) (V c main_arg2) (V c main_v0) (V c main_arg4) (V c main_v1)) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  rw [pay_eq]
  funext j
  obtain ⟨p, q, rfl⟩ : ∃ (p : Fin 10000) (q : Fin 128), j = ix2 p q := ⟨j 0, j 1, eq_ix2 j⟩
  show mlp (iblk0 V c 0 t) (iblk0 V c 1 t) (fun q => iblk0 V c 2 t (ix2 (0 : Fin 1) q)) (iblk0 V c 3 t)
      (fun q => iblk0 V c 4 t (ix2 (0 : Fin 1) q)) (ix2 p q)
    = atomNet (V c main_arg0) (V c main_arg2) (V c main_v0) (V c main_arg4) (V c main_v1) (((cfg0.win 5).blk t).view.emb (ix2 p q))
  rw [emb_out]
  exact mlp_congr (fun k => feat_blk V c t p k) (fun k q => w1_blk V c t _) (fun q => b1_blk V c t _)
    (fun q => w2_blk V c t _) (b2_blk V c t _)

/-- An index of the output array is in point t's block iff each coordinate is in the block's range on its axis. -/
theorem mem_blk (t : Fin cfg0.N) (i : S1000000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v2).slice (win0_5.rect t)).set ↔ _
  rw [View.set_slice_whole, Rect.mem_set_unit]
  exact Iff.rfl

/-- Every row of the output array is in the block of the point numbered by its row divided by 10000. -/
theorem cover (i : S1000000x128.Idx) :
    ∃ t : Fin cfg0.N, (cfg0.win 5).flush t = true ∧ i ∈ ((cfg0.win 5).blk t).view.set := by
  have hi0 : (i 0).val < 1000000 := (i 0).isLt
  have hi1 : (i 1).val < 128 := (i 1).isLt
  have hN : cfg0.N = 100 := N_0
  refine ⟨⟨(i 0).val / 10000, by rw [hN]; omega⟩, flush0_5 _, ?_⟩
  rw [mem_blk]
  obtain ⟨-, -, -, -, -, -, -, -, -, -, e0, e1⟩ := idx_facts ⟨(i 0).val / 10000, by rw [hN]; omega⟩
  intro a
  match a with
  | ⟨0, _⟩ =>
    show win0_5.index ⟨(i 0).val / 10000, _⟩ (0 : Fin 2) * 10000 ≤ (i 0).val ∧ (i 0).val < win0_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_5.index ⟨(i 0).val / 10000, _⟩ (1 : Fin 2) * 128 ≤ (i 1).val ∧ (i 1).val < win0_5.index ⟨(i 0).val / 10000, _⟩ (1 : Fin 2) * 128 + 128
    rw [e1]; omega

/-- THE OUTPUT ARRAY AFTER THE REGION: the per-atom network of the arrays the region finds. -/
theorem final (c : Dev nD) :
    (dat0 V c).arrAt 5 cfg0.N = atomNet (V c main_arg0) (V c main_arg2) (V c main_v0) (V c main_arg4) (V c main_v1) :=
  (dat0 V c).arrAt_eq_of_cover 5 _ (fun t _ => flushed_eq V c t) cover

end Cert.KernelIdeal.AtomValue

end
-- ==== Proof.HeadValue.lean ====
/-
  REGION 1, the per-graph head: what its output array holds after the region, as one function of the arrays the
  region finds.

  The grid has 10 points.  Point t reads rows 10000·t … 10000·t + 9999 of the pooled array (window 0), the whole of the
  [128, 128] and [128, 1] weight matrices and of the [1, 128] and [1, 1] bias rows (windows 1–4), and writes rows
  10000·t … 10000·t + 9999 of the [100000, 1] output (window 5).  The body computes, for its block x of 10000 rows,
      (act (x · W₃ + b₃)) · W₄ + b₄        with act y = y · σ(y).
  Entry (p, 0) of that block depends on row p of x only, so the block is rows 10000·t … of the same expression of the
  WHOLE pooled array; the 10 blocks tile the output array.
-/
import proofs.«157744_j50964081935487_1_alg».proof.Proof.Gen.KernelIdeal.Frame
import proofs.«157744_j50964081935487_1_alg».proof.Proof.LibDenseLayer
import Idealize.ShloMosaic.Lib.Pipeline.Value
import Idealize.ShloMosaic.Lib.ValueIdx

set_option maxRecDepth 16384

noncomputable section

namespace Cert.KernelIdeal.HeadValue

open Cert.KernelIdeal Cert.KernelIdeal.Gen Idealize.ShloMosaic Idealize.ShloMosaic.TcCoe Idealize.SL.Sem
open Idealize.ShloMosaic.Pipeline (Dat Cfg Window)
open Idealize.ShloMosaic.ValueIdx DenseLayer

variable (V : (c : Dev nD) → (b : Ref sig .tc) → Buf (Elt Ideal) ((c : Thread nD τ).loc b))

/-- The body's two matrix products are plain: rows × contraction times contraction × columns. -/
theorem plain1 : PlainDot.IsPlain dot_S10000x128_S128x128_S10000x128_1_0_0_1_n_n := ⟨rfl, rfl, rfl, rfl, rfl, rfl⟩
theorem plain2 : PlainDot.IsPlain dot_S10000x128_S128x1_S10000x1_1_0_0_1_n_n := ⟨rfl, rfl, rfl, rfl, rfl, rfl⟩

/-- The value the body stores, as two dense layers with the activation between them, of the five blocks it loads. -/
theorem pay_eq (x0 : Vec Ideal S10000x128 .f32) (x1 : Vec Ideal S128x128 .f32) (x2 : Vec Ideal S1x128 .f32)
    (x3 : Vec Ideal S128x1 .f32) (x4 : Vec Ideal S1x1 .f32) :
    k1_pay1 (F := Ideal) x0 x1 x2 x3 x4
      = mlp x0 x1 (fun q => x2 (ix2 (0 : Fin 1) q)) x3 (fun q => x4 (ix2 (0 : Fin 1) q)) := by
  unfold k1_pay1
  dsimp only
  rw [shapeCast_self x0, kernel_dense plain1 x0 x1 x2, kernel_act, kernel_dense plain2 _ x3 x4]
  rfl

/-- The per-graph head of whole arrays: pooled features [100000, 128], a [128, 128] and a [128, 1] weight matrix, a
    [1, 128] and a [1, 1] bias row. -/
abbrev headNet (a0 : S100000x128.Idx → EReal) (w3 : S128x128.Idx → EReal) (b3 : S1x128.Idx → EReal)
    (w4 : S128x1.Idx → EReal) (b4 : S1x1.Idx → EReal) : S100000x1.Idx → EReal :=
  mlp a0 w3 (fun q => b3 (ix2 (0 : Fin 1) q)) w4 (fun q => b4 (ix2 (0 : Fin 1) q))

theorem hz : (![0, 0] : Fin 2 → Nat) = fun _ => 0 := funext fun a => by fin_cases a <;> rfl

/-- The printed index maps over the grid: the pooled window and the output window are at block (t, 0); the weight and
    bias windows stay at block (0, 0). -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block is row 10000·t + p of the array. -/
def row (t : Fin cfg1.N) (p : Fin 10000) : Fin 100000 :=
  ⟨t.val * 10000 + p.val, by have h : t.val < 10 := lt_of_lt_of_eq t.isLt N_1; have := p.isLt; omega⟩

/-- Where an element of the pooled block sits in the pooled array. -/
theorem emb_in (t : Fin cfg1.N) (p : Fin 10000) (k : Fin 128) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

/-- Where an element of the output block sits in the output array. -/
theorem emb_out (t : Fin cfg1.N) (p : Fin 10000) (q : Fin 1) :
    ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 10000 + 1 * p.val = t.val * 10000 + p.val; omega
  | ⟨1, _⟩ => show win1_5.index t (1 : Fin 2) * 1 + 1 * q.val = q.val; omega

/-- The pooled block at point t, read at (p, k), is the pooled array at (10000·t + p, k). -/
theorem pooled_blk (c : Dev nD) (t : Fin cfg1.N) (p : Fin 10000) (k : Fin 128) :
    iblk1 V c 0 t (ix2 p k) = V c main_v5 (ix2 (row t p) k) := by
  show V c main_v5 (((cfg1.win 0).blk t).view.emb (ix2 p k)) = _
  rw [emb_in]

/-- The first weight block is the whole [128, 128] weight matrix, at every point. -/
theorem w3_blk (c : Dev nD) (t : Fin cfg1.N) (y : S128x128.Idx) : iblk1 V c 1 t y = V c main_arg6 y := by
  show V c main_arg6 (((cfg1.win 1).blk t).view.emb y) = _
  obtain ⟨-, -, e0, e1, -⟩ := idx_facts t
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The first bias block is the whole [1, 128] bias row. -/
theorem b3_blk (c : Dev nD) (t : Fin cfg1.N) (y : S1x128.Idx) : iblk1 V c 2 t y = V c main_v6 y := by
  show V c main_v6 (((cfg1.win 2).blk t).view.emb y) = _
  obtain ⟨-, -, -, -, e0, e1, -⟩ := idx_facts t
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The second weight block is the whole [128, 1] weight matrix. -/
theorem w4_blk (c : Dev nD) (t : Fin cfg1.N) (y : S128x1.Idx) : iblk1 V c 3 t y = V c main_arg8 y := by
  show V c main_arg8 (((cfg1.win 3).blk t).view.emb y) = _
  obtain ⟨-, -, -, -, -, -, e0, e1, -⟩ := idx_facts t
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 1 + 1 * (y 1).val = (y 1).val; omega

/-- The second bias block is the whole [1, 1] bias. -/
theorem b4_blk (c : Dev nD) (t : Fin cfg1.N) (y : S1x1.Idx) : iblk1 V c 4 t y = V c main_v7 y := by
  show V c main_v7 (((cfg1.win 4).blk t).view.emb y) = _
  obtain ⟨-, -, -, -, -, -, -, -, e0, e1, -⟩ := idx_facts t
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 1 + 1 * (y 1).val = (y 1).val; omega

/-- WHAT POINT t WRITES BACK is block t of the per-graph head of the whole arrays the region finds. -/
theorem flushed_eq (c : Dev nD) (t : Fin cfg1.N) :
    (dat1 V c).flushed 5 t = ((cfg1.win 5).blk t).view.read (Elt Ideal)
      (headNet (V c main_v5) (V c main_arg6) (V c main_v6) (V c main_arg8) (V c main_v7)) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x128) hz, View.ld_unit_zero (S := S1x128) hz,
    View.ld_unit_zero (S := S128x1) hz, View.ld_unit_zero (S := S1x1) hz]
  rw [pay_eq]
  funext j
  obtain ⟨p, q, rfl⟩ : ∃ (p : Fin 10000) (q : Fin 1), j = ix2 p q := ⟨j 0, j 1, eq_ix2 j⟩
  show mlp (iblk1 V c 0 t) (iblk1 V c 1 t) (fun q => iblk1 V c 2 t (ix2 (0 : Fin 1) q)) (iblk1 V c 3 t)
      (fun q => iblk1 V c 4 t (ix2 (0 : Fin 1) q)) (ix2 p q)
    = headNet (V c main_v5) (V c main_arg6) (V c main_v6) (V c main_arg8) (V c main_v7) (((cfg1.win 5).blk t).view.emb (ix2 p q))
  rw [emb_out]
  exact mlp_congr (fun k => pooled_blk V c t p k) (fun k q => w3_blk V c t _) (fun q => b3_blk V c t _)
    (fun q => w4_blk V c t _) (b4_blk V c t _)

/-- An index of the output array is in point t's block iff each coordinate is in the block's range on its axis. -/
theorem mem_blk (t : Fin cfg1.N) (i : S100000x1.Idx) :
    i ∈ ((cfg1.win 5).blk t).view.set ↔ ∀ a : Fin 2, win1_5.index t a * S10000x1.size a ≤ (i a).val ∧ (i a).val < win1_5.index t a * S10000x1.size a + S10000x1.size a := by
  show i ∈ ((View.whole main_v8).slice (win1_5.rect t)).set ↔ _
  rw [View.set_slice_whole, Rect.mem_set_unit]
  exact Iff.rfl

/-- Every row of the output array is in the block of the point numbered by its row divided by 10000. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 10 := N_1
  refine ⟨⟨(i 0).val / 10000, by rw [hN]; omega⟩, flush1_5 _, ?_⟩
  rw [mem_blk]
  obtain ⟨-, -, -, -, -, -, -, -, -, -, e0, e1⟩ := idx_facts ⟨(i 0).val / 10000, by rw [hN]; omega⟩
  intro a
  match a with
  | ⟨0, _⟩ =>
    show win1_5.index ⟨(i 0).val / 10000, _⟩ (0 : Fin 2) * 10000 ≤ (i 0).val ∧ (i 0).val < win1_5.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, _⟩ (1 : Fin 2) * 1 ≤ (i 1).val ∧ (i 1).val < win1_5.index ⟨(i 0).val / 10000, _⟩ (1 : Fin 2) * 1 + 1
    rw [e1]; omega

/-- THE OUTPUT ARRAY AFTER THE REGION: the per-graph head of the arrays the region finds. -/
theorem final (c : Dev nD) :
    (dat1 V c).arrAt 5 cfg1.N = headNet (V c main_v5) (V c main_arg6) (V c main_v6) (V c main_arg8) (V c main_v7) :=
  (dat1 V c).arrAt_eq_of_cover 5 _ (fun t _ => flushed_eq V c t) cover

end Cert.KernelIdeal.HeadValue

end
-- ==== Proof.Net.lean ====
/-
  THE WHOLE COMPUTATION as one function of the argument arrays: the per-atom network on the [1000000, 128] feature
  array, a pooling of the million atom rows into 100000 graph rows, and the per-graph head on the pooled array, which
  gives one number per graph.  The pooling (a segment sum over the graph-id vector) is the same host operation in both
  programs, so it enters as an abstract map between arrays and is never opened.
-/
import proofs.«157744_j50964081935487_1_alg».proof.Proof.LibDenseLayer

noncomputable section

namespace Net

open Idealize.ShloMosaic Idealize.ShloMosaic.ValueIdx DenseLayer

/-- head (pool (atom network x)) with the four weight matrices and the four bias rows. -/
def net (pool : ((⟨2, ![1000000, 128]⟩ : Shape).Idx → EReal) → (⟨2, ![100000, 128]⟩ : Shape).Idx → EReal)
    (x : (⟨2, ![1000000, 128]⟩ : Shape).Idx → EReal)
    (w1 : (⟨2, ![128, 128]⟩ : Shape).Idx → EReal) (b1 : Fin 128 → EReal)
    (w2 : (⟨2, ![128, 128]⟩ : Shape).Idx → EReal) (b2 : Fin 128 → EReal)
    (w3 : (⟨2, ![128, 128]⟩ : Shape).Idx → EReal) (b3 : Fin 128 → EReal)
    (w4 : (⟨2, ![128, 1]⟩ : Shape).Idx → EReal) (b4 : Fin 1 → EReal) : (⟨2, ![100000, 1]⟩ : Shape).Idx → EReal :=
  mlp (pool (mlp x w1 b1 w2 b2)) w3 b3 w4 b4

end Net

end
-- ==== Proof.Boundary.lean ====
/-
  FROM THE LAST BOUNDARY BACK TO THE ARGUMENTS: the program's result as one function of its argument arrays.

  The result buffer after the second region is that region's output array, which is the per-graph head of the arrays
  the region finds (HeadValue).  Those are: the pooled array — the segment sum, by the graph-id vector, of the first
  region's output array into a zero array —, two weight matrices as launched, and the two head biases reshaped to
  [1, 128] and [1, 1].  The first region's output array is the per-atom network of the arrays THAT region finds
  (AtomValue): the features and two weight matrices as launched and the two atom biases reshaped to [1, 128].  No host
  operation and no region writes an argument, so each argument read at a later boundary is the argument as launched.
  A length-n vector reshaped to [1, n] and read at (0, q) is the vector at q.
-/
import proofs.«157744_j50964081935487_1_alg».proof.Proof.Gen.KernelIdeal.Frame
import proofs.«157744_j50964081935487_1_alg».proof.Proof.AtomValue
import proofs.«157744_j50964081935487_1_alg».proof.Proof.HeadValue
import proofs.«157744_j50964081935487_1_alg».proof.Proof.Net
import Idealize.ShloMosaic.Lib.StableHlo.Run
import Idealize.ShloMosaic.Lib.Pipeline.Value

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo Idealize.ShloMosaic.ValueIdx DenseLayer

variable (m : (ℓ : Loc nD τ sig) → Buf (Elt Ideal) ℓ) (ρ : Dev nD → PrngReg)

/-- A length-Q vector reshaped to [1, Q], read at (0, q), is the vector at q. -/
theorem row_of_reshape {α : Type} {Q : Nat} (x : (⟨1, ![Q]⟩ : Shape).Idx → α)
    (h : (⟨1, ![Q]⟩ : Shape).ShapeCasts ⟨2, ![1, Q]⟩) (q : Fin Q) :
    shapeCast ⟨2, ![1, Q]⟩ x h (ix2 (0 : Fin 1) q) = x (ix1 q) :=
  (shapeCast_addUnit_apply ![Q] x h (ix2 (0 : Fin 1) q)).trans
    (congrArg x (funext fun a => match a with | ⟨0, _⟩ => rfl))

/-- The pooling as this program spells it: the segment sum of the atom rows, by the graph-id vector broadcast to a
    column of indices, into the zero array. -/
def pool (ids : S1000000.Idx → BitVec 32) (h : S1000000x128.Idx → EReal) : S100000x128.Idx → EReal :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 ids) h

/-! ## What the first region finds -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_v0 (c : Dev nD) :
    V1 m ρ c main_v0 = shapeCast S1x128 (m ((c : Thread nD τ).loc main_arg3)) shapeCasts_S128_S1x128 := by
  show StableHlo.after hostOps0 (W0 m ρ c) (Proc.devRef .tc main_v0) = _
  after_results <;> rfl
theorem V1_v1 (c : Dev nD) :
    V1 m ρ c main_v1 = shapeCast S1x128 (m ((c : Thread nD τ).loc main_arg5)) shapeCasts_S128_S1x128 := by
  show StableHlo.after hostOps0 (W0 m ρ c) (Proc.devRef .tc main_v1) = _
  after_results <;> rfl

/-! ## What the first region leaves -/

/-- The first region's output array: the per-atom network of the arguments. -/
theorem W2_v2 (c : Dev nD) :
    W2 m ρ c (Proc.devRef .tc main_v2)
      = mlp (m ((c : Thread nD τ).loc main_arg0)) (m ((c : Thread nD τ).loc main_arg2))
          (fun q => m ((c : Thread nD τ).loc main_arg3) (ix1 q)) (m ((c : Thread nD τ).loc main_arg4))
          (fun q => m ((c : Thread nD τ).loc main_arg5) (ix1 q)) := by
  rw [show W2 m ρ c (Proc.devRef .tc main_v2) = (dat0 (V1 m ρ) c).arrAt 5 cfg0.N from W2_arr m ρ c 5,
    AtomValue.final (V1 m ρ) c, V1_arg0, V1_arg2, V1_v0, V1_arg4, V1_v1]
  show mlp _ _ (fun q => shapeCast S1x128 (m ((c : Thread nD τ).loc main_arg3)) shapeCasts_S128_S1x128 (ix2 (0 : Fin 1) q)) _
      (fun q => shapeCast S1x128 (m ((c : Thread nD τ).loc main_arg5)) shapeCasts_S128_S1x128 (ix2 (0 : Fin 1) q)) = _
  rw [show (fun q : Fin 128 => shapeCast S1x128 (m ((c : Thread nD τ).loc main_arg3)) shapeCasts_S128_S1x128 (ix2 (0 : Fin 1) q))
        = fun q => m ((c : Thread nD τ).loc main_arg3) (ix1 q) from funext fun q => row_of_reshape _ _ q,
      show (fun q : Fin 128 => shapeCast S1x128 (m ((c : Thread nD τ).loc main_arg5)) shapeCasts_S128_S1x128 (ix2 (0 : Fin 1) q))
        = fun q => m ((c : Thread nD τ).loc main_arg5) (ix1 q) from funext fun q => row_of_reshape _ _ q]

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl

/-! ## What the second region finds -/

/-- The pooled array: the segment sum of the first region's output array. -/
theorem V3_v5 (c : Dev nD) :
    V3 m ρ c main_v5 = pool (m ((c : Thread nD τ).loc main_arg1)) (W2 m ρ c (Proc.devRef .tc main_v2)) := by
  rw [← W2_arg1 m ρ c]
  show StableHlo.after hostOps1 (W2 m ρ c) (Proc.devRef .tc main_v5) = _
  after_results <;> rfl
theorem V3_arg6 (c : Dev nD) : V3 m ρ c main_arg6 = m ((c : Thread nD τ).loc main_arg6) := by
  rw [← W2_arg6 m ρ c]
  show StableHlo.after hostOps1 (W2 m ρ c) (Proc.devRef .tc main_arg6) = _
  after_results <;> rfl
theorem V3_arg8 (c : Dev nD) : V3 m ρ c main_arg8 = m ((c : Thread nD τ).loc main_arg8) := by
  rw [← W2_arg8 m ρ c]
  show StableHlo.after hostOps1 (W2 m ρ c) (Proc.devRef .tc main_arg8) = _
  after_results <;> rfl
theorem V3_v6 (c : Dev nD) :
    V3 m ρ c main_v6 = shapeCast S1x128 (m ((c : Thread nD τ).loc main_arg7)) shapeCasts_S128_S1x128 := by
  rw [← W2_arg7 m ρ c]
  show StableHlo.after hostOps1 (W2 m ρ c) (Proc.devRef .tc main_v6) = _
  after_results <;> rfl
theorem V3_v7 (c : Dev nD) :
    V3 m ρ c main_v7 = shapeCast S1x1 (m ((c : Thread nD τ).loc main_arg9)) shapeCasts_S1_S1x1 := by
  rw [← W2_arg9 m ρ c]
  show StableHlo.after hostOps1 (W2 m ρ c) (Proc.devRef .tc main_v7) = _
  after_results <;> rfl

/-! ## The result -/

/-- THE PROGRAM'S RESULT: the whole computation of the argument arrays. -/
theorem result_eq (c : Dev nD) :
    W4 m ρ c (Proc.devRef .tc main_v8)
      = Net.net (pool (m ((c : Thread nD τ).loc main_arg1)))
          (m ((c : Thread nD τ).loc main_arg0))
          (m ((c : Thread nD τ).loc main_arg2)) (fun q => m ((c : Thread nD τ).loc main_arg3) (ix1 q))
          (m ((c : Thread nD τ).loc main_arg4)) (fun q => m ((c : Thread nD τ).loc main_arg5) (ix1 q))
          (m ((c : Thread nD τ).loc main_arg6)) (fun q => m ((c : Thread nD τ).loc main_arg7) (ix1 q))
          (m ((c : Thread nD τ).loc main_arg8)) (fun q => m ((c : Thread nD τ).loc main_arg9) (ix1 q)) := by
  rw [show W4 m ρ c (Proc.devRef .tc main_v8) = (dat1 (V3 m ρ) c).arrAt 5 cfg1.N from W4_arr m ρ c 5,
    HeadValue.final (V3 m ρ) c, V3_v5, V3_arg6, V3_v6, V3_arg8, V3_v7, W2_v2]
  show mlp _ _ (fun q => shapeCast S1x128 (m ((c : Thread nD τ).loc main_arg7)) shapeCasts_S128_S1x128 (ix2 (0 : Fin 1) q)) _
      (fun q => shapeCast S1x1 (m ((c : Thread nD τ).loc main_arg9)) shapeCasts_S1_S1x1 (ix2 (0 : Fin 1) q)) = _
  rw [show (fun q : Fin 128 => shapeCast S1x128 (m ((c : Thread nD τ).loc main_arg7)) shapeCasts_S128_S1x128 (ix2 (0 : Fin 1) q))
        = fun q => m ((c : Thread nD τ).loc main_arg7) (ix1 q) from funext fun q => row_of_reshape _ _ q,
      show (fun q : Fin 1 => shapeCast S1x1 (m ((c : Thread nD τ).loc main_arg9)) shapeCasts_S1_S1x1 (ix2 (0 : Fin 1) q))
        = fun q => m ((c : Thread nD τ).loc main_arg9) (ix1 q) from funext fun q => row_of_reshape _ _ q]
  rfl

end Cert.KernelIdeal.Boundary

end
-- ==== Proof.RefValue.lean ====
/-
  THE REFERENCE'S RESULT as the whole computation of its argument arrays.

  The reference computes, on the host, two dense layers with the activation between them over the million atom rows,
  the segment sum by the graph-id vector into a zero array, and two more dense layers with the activation between them
  over the hundred thousand graph rows.  Each dense layer is a general dot product plus a bias broadcast twice; the
  activation is spelt y · (1 / (1 + exp (-y))).  At the ideal instance each is the exact layer and the exact activation,
  so the reference's term IS `Net.net` over its own spelling of the pooling.
-/
import proofs.«157744_j50964081935487_1_alg».proof.Proof.Gen.ReferenceIdeal.Read
import proofs.«157744_j50964081935487_1_alg».proof.Proof.Net

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx DenseLayer

theorem plainA : PlainDot.IsPlain dot_S1000000x128_S128x128_S1000000x128_1_0_0_1_n_n := ⟨rfl, rfl, rfl, rfl, rfl, rfl⟩
theorem plainB : PlainDot.IsPlain dot_S100000x128_S128x128_S100000x128_1_0_0_1_n_n := ⟨rfl, rfl, rfl, rfl, rfl, rfl⟩
theorem plainC : PlainDot.IsPlain dot_S100000x128_S128x1_S100000x1_1_0_0_1_n_n := ⟨rfl, rfl, rfl, rfl, rfl, rfl⟩

/-- The pooling as the reference spells it: the segment sum of the atom rows, by the graph-id vector broadcast to a
    column of indices, into the zero array. -/
def pool (ids : S1000000.Idx → BitVec 32) (h : S1000000x128.Idx → EReal) : S100000x128.Idx → EReal :=
  Host.scatterAdd (F := Ideal) scatter_S100000x128_S1000000x1_S1000000x128_1_0_0_1
    (broadcastInDim S100000x128 ![] bcast_S_S100000x128 (constant (F := Ideal) S_ .f32 0x00000000#32))
    (broadcastInDim S1000000x1 ![0] bcast_S1000000_S1000000x1_0 ids) h

/-- THE REFERENCE'S RESULT: the whole computation of the argument arrays. -/
theorem result_eq (x0 : (⟨S1000000x128, .f32⟩ : BufTy).Contents (Elt Ideal)) (x1 : (⟨S1000000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal)) :
    Read.val_main_v20 (F := Ideal) x0 x1 x2 x3 x4 x5 x6 x7 x8 x9
      = Net.net (pool x1) x0 x2 (fun q => x3 (ix1 q)) x4 (fun q => x5 (ix1 q)) x6 (fun q => x7 (ix1 q)) x8 (fun q => x9 (ix1 q)) := by
  rw [← Read.val_main_v20_eq]
  rw [host_dense plainA x0 x2 x3, host_act, host_dense plainA _ x4 x5, host_dense plainB _ x6 x7, host_act,
    host_dense plainC _ x8 x9]
  rfl

end Cert.ReferenceIdeal.RefValue

end
-- ==== Proof.lean ====
/-
  THE CLAIM: a kernel pair for a graph network — a per-atom two-layer network on a [1000000, 128] feature array, a
  segment sum of the atom rows into 100000 graphs, and a per-graph two-layer head giving one number per graph —
  against the same computation written with jnp on the host.

  The kernel runs the two networks as two tiled kernel regions (100 and 10 blocks of 10000 rows), with matrix products
  on operands rounded to bf16 and the activation spelt y · logistic y; the reference runs them as host dot products on
  f32 with the activation spelt y · (1 / (1 + exp (-y))).  Over the extended reals a rounding is the identity, both
  products are the exact sum over the contracted axis in the same order, and both activations are y · σ(y); the
  segment sum is the same host operation in both programs.  So both results are ONE function of the argument arrays
  (`Net.net`): the kernel's because each block of rows of a layer depends on the same rows of its input and the blocks
  tile the arrays (AtomValue, HeadValue, Boundary), the reference's by reading its operations one by one (RefValue).
  No law of arithmetic beyond that is used, so the precondition is never opened.  The second result is the feature
  array itself, unchanged in both programs.  The ideal pass rewrote nothing, so `preserves` is trivial; the three
  frames are the generated ones.
-/
import proofs.«157744_j50964081935487_1_alg».proof.Defs
import proofs.«157744_j50964081935487_1_alg».proof.Proof.Gen.Kernel
import proofs.«157744_j50964081935487_1_alg».proof.Proof.Gen.Kernel.Frame
import proofs.«157744_j50964081935487_1_alg».proof.Proof.Gen.KernelIdeal
import proofs.«157744_j50964081935487_1_alg».proof.Proof.Gen.KernelIdeal.Frame
import proofs.«157744_j50964081935487_1_alg».proof.Proof.Gen.ReferenceIdeal
import proofs.«157744_j50964081935487_1_alg».proof.Proof.Gen.ReferenceIdeal.Run
import proofs.«157744_j50964081935487_1_alg».proof.Proof.Gen.ReferenceIdeal.Read
import proofs.«157744_j50964081935487_1_alg».proof.Proof.Gen.Pre_finite_inputs
import proofs.«157744_j50964081935487_1_alg».proof.Proof.RunValue
import proofs.«157744_j50964081935487_1_alg».proof.Proof.Boundary
import proofs.«157744_j50964081935487_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The two programs spell the pooling with the same dimension numbers, the same zero array and the same index column. -/
theorem pool_eq : Cert.ReferenceIdeal.RefValue.pool = Cert.KernelIdeal.Boundary.pool := rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the whole computation of the (agreeing) argument arrays in the first result and the feature
    array in the second. -/
theorem algebraic : Cert.algebraic_KernelIdeal_ReferenceIdeal := by
  intro m ρ m' ρ' _ hagree
  refine ⟨_, _, (θ_run Cert.KernelIdeal.defs _ _).mono
    (fun _ h c => ⟨(h c).1.trans (Cert.KernelIdeal.Boundary.result_eq m ρ c), (h c).2.1, (h c).2⟩)
    (Cert.KernelIdeal.RunValue.run (F := Ideal) m ρ), ?_⟩
  refine (θ_run Cert.ReferenceIdeal.defs _ _).mono (fun _ h c => ⟨?_, (h c).2.1.trans (hagree c).1, (h c).2.2⟩)
    (Cert.ReferenceIdeal.Value.run (F := Ideal) m' ρ')
  obtain ⟨a0, a1, a2, a3, a4, a5, a6, a7, a8, a9⟩ := hagree c
  rw [(h c).1, Cert.ReferenceIdeal.Read.val_main_v20_eq, Cert.ReferenceIdeal.RefValue.result_eq, pool_eq,
    a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
